-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S32x9216 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x96x96 : Shape := ⟨4, ![32, 128, 96, 96]⟩
abbrev S32x128 : Shape := ⟨2, ![32, 128]⟩
abbrev S32 : Shape := ⟨1, ![32]⟩
abbrev S_ : Shape := ⟨0, ![]⟩

class Facts : Prop where
  bcast_S_S32x128x96x96 : S_.BroadcastsInDim S32x128x96x96 (![] : Fin 0 → Fin S32x128x96x96.rank)
  reducesTo_S32x128x96x96_S_d0_1_2_3 : S32x128x96x96.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x128x96x96 .f32) (main_arg1 : FVec F S32x128 .f32) (main_arg2 : FVec F S32 .f32) : IVec S_ 1 :=
  let main_v0 : FVec F S32x128x96x96 .f32 := Host.absf main_arg0
  let main_cst : FVec F S_ .f32 := constant S_ .f32 0x7F800000#32
  let main_v1 : FVec F S32x128x96x96 .f32 := broadcastInDim S32x128x96x96 ![] bcast_S_S32x128x96x96 main_cst
  let main_v2 : IVec S32x128x96x96 1 := cmpf .olt main_v0 main_v1
  let main_c : IVec S_ 1 := constantI S_ 1 1#1
  let main_v3 : IVec S_ 1 := (fun x v => Host.reduce IntOp.andi x v reducesTo_S32x128x96x96_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x128x96x96 : Shape := ⟨4, ![32, 128, 96, 96]⟩
abbrev S32x128 : Shape := ⟨2, ![32, 128]⟩
abbrev S32 : Shape := ⟨1, ![32]⟩
abbrev S32x128x9216 : Shape := ⟨3, ![32, 128, 9216]⟩
abbrev S32x1 : Shape := ⟨2, ![32, 1]⟩
abbrev S32x32x128 : Shape := ⟨3, ![32, 32, 128]⟩
abbrev S2x128x9216 : Shape := ⟨3, ![2, 128, 9216]⟩
abbrev S2x32x128 : Shape := ⟨3, ![2, 32, 128]⟩
abbrev S1x128x9216 : Shape := ⟨3, ![1, 128, 9216]⟩
abbrev S128x9216 : Shape := ⟨2, ![128, 9216]⟩
abbrev S9216 : Shape := ⟨1, ![9216]⟩
abbrev S1x9216 : Shape := ⟨2, ![1, 9216]⟩
abbrev S32x9216 : Shape := ⟨2, ![32, 9216]⟩
abbrev S1x32x128 : Shape := ⟨3, ![1, 32, 128]⟩

abbrev nBuf : Space → Nat
  | .hbm => 6
  | .vmem => 6
  | .smem => 0
  | _ => 0

abbrev bufTy : (tb : Table) → Fin (tcTables nBuf tb) → BufTy
  | .hbm, ⟨0, _⟩ => ⟨S32x128x96x96, .f32⟩
  | .hbm, ⟨1, _⟩ => ⟨S32x128, .f32⟩
  | .hbm, ⟨2, _⟩ => ⟨S32, .f32⟩
  | .hbm, ⟨3, _⟩ => ⟨S32x128x9216, .f32⟩
  | .hbm, ⟨4, _⟩ => ⟨S32x1, .f32⟩
  | .hbm, ⟨5, _⟩ => ⟨S32x32x128, .f32⟩
  | .local _ .vmem, ⟨0, _⟩ => ⟨S2x128x9216, .f32⟩
  | .local _ .vmem, ⟨1, _⟩ => ⟨S2x128x9216, .f32⟩
  | .local _ .vmem, ⟨2, _⟩ => ⟨S32x128, .f32⟩
  | .local _ .vmem, ⟨3, _⟩ => ⟨S32x1, .f32⟩
  | .local _ .vmem, ⟨4, _⟩ => ⟨S2x32x128, .f32⟩
  | .local _ .vmem, ⟨5, _⟩ => ⟨S2x32x128, .f32⟩
  | _, _ => ⟨S32x128x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v8 : BitVec 32 := Scalar.addi c0_i32 c2_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v9 : Index := Scalar.indexCast arg5
  let c0_4 : Index := 0#32
  let c0_5 : Index := 0#32
  ![v9.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v42 : Index := Scalar.indexCast arg5
  let c0_13 : Index := 0#32
  let c0_14 : Index := 0#32
  ![v42.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x128x96x96_S32x128x9216 : S32x128x96x96.ShapeCasts S32x128x9216
  shapeCasts_S32_S32x1 : S32.ShapeCasts S32x1
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x128_S32 : S32x128.Reduces [1] S32
  bitsLt_bf16_f32 : FTy.bits .bf16 < FTy.bits .f32
  h_S1x128x9216 : 0 < S1x128x9216.numel
  shapeCasts_S1x128x9216_S128x9216 : S1x128x9216.ShapeCasts S128x9216
  reduces_S128x9216_S9216 : S128x9216.Reduces [0] S9216
  shapeCasts_S9216_S1x9216 : S9216.ShapeCasts S1x9216
  broadcasts_S1x9216_S32x9216 : S1x9216.Broadcasts S32x9216
  broadcasts_S32x1_S32x9216 : S32x1.Broadcasts S32x9216
  reduces_S32x9216_S9216 : S32x9216.Reduces [0] S9216
  reduces_S32x9216_S32 : S32x9216.Reduces [1] S32
  broadcasts_S32x1_S32x128 : S32x1.Broadcasts S32x128
  h_S1x32x128 : 0 < S1x32x128.numel
  shapeCasts_S1x32x128_S32x128 : S1x32x128.ShapeCasts S32x128
  shapeCasts_S32x128_S1x32x128 : S32x128.ShapeCasts S1x32x128
  dot_S32x128_S128x9216_S32x9216_1_0_0_1_n_n_wf : DotDims.WF S32x128 S128x9216 S32x9216 [1] [0] [0] [1] [] []
  dot_S32x9216_S128x9216_S32x128_1_1_0_0_n_n_wf : DotDims.WF S32x9216 S128x9216 S32x128 [1] [1] [0] [0] [] []
  hrank0 : 0 < grid0.rank
  k0_t1_ok : k0_t1_loop.OK
  k0_off1_inb : ∀ k0_t1 : Fin k0_t1_loop.trips, ∀ a, (k0_off1 k0_t1) a + S1x128x9216.size a ≤ S2x128x9216.size a
  k0_off2_inb : ∀ k0_t1 : Fin k0_t1_loop.trips, ∀ a, (k0_off2 k0_t1) a + S1x32x128.size a ≤ S2x32x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x9216.size a ≤ S32x128x9216.size a
  hwx0_0 : ∀ i : grid0.Coords, EltTy.bits .f32 = 32 ∨ (Rect.block (s := S32x128x9216) S2x128x9216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x32x128.size a ≤ S32x32x128.size a
  hwx0_3 : ∀ i : grid0.Coords, EltTy.bits .f32 = 32 ∨ (Rect.block (s := S32x32x128) S2x32x128.size (cc0_transform_3 i) (hinb0_3 i)).WholeWords (EltTy.packing .f32)

variable [Facts₀]

def dot_S32x128_S128x9216_S32x9216_1_0_0_1_n_n : DotDims S32x128 S128x9216 S32x9216 where
  lhsContracting := [1]
  rhsContracting := [0]
  lhsNonContracting := [0]
  rhsNonContracting := [1]
  lhsBatch := []
  rhsBatch := []
  wf := dot_S32x128_S128x9216_S32x9216_1_0_0_1_n_n_wf
def dot_S32x9216_S128x9216_S32x128_1_1_0_0_n_n : DotDims S32x9216 S128x9216 S32x128 where
  lhsContracting := [1]
  rhsContracting := [1]
  lhsNonContracting := [0]
  rhsNonContracting := [0]
  lhsBatch := []
  rhsBatch := []
  wf := dot_S32x9216_S128x9216_S32x128_1_1_0_0_n_n_wf

abbrev win0_0 : Pipeline.Window sig grid0 :=
  Pipeline.Window.ofSpec (Memref.whole main_v0) S2x128x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x96x96 : Shape := ⟨4, ![32, 128, 96, 96]⟩
abbrev S32x128 : Shape := ⟨2, ![32, 128]⟩
abbrev S32 : Shape := ⟨1, ![32]⟩
abbrev S32x128x9216 : Shape := ⟨3, ![32, 128, 9216]⟩
abbrev S32x9216x128 : Shape := ⟨3, ![32, 9216, 128]⟩
abbrev S_ : Shape := ⟨0, ![]⟩
abbrev S32x9216 : Shape := ⟨2, ![32, 9216]⟩
abbrev S32x9216x32 : Shape := ⟨3, ![32, 9216, 32]⟩
abbrev S1x1x32 : Shape := ⟨3, ![1, 1, 32]⟩
abbrev S32x9216x1 : Shape := ⟨3, ![32, 9216, 1]⟩
abbrev S32x32x128 : Shape := ⟨3, ![32, 32, 128]⟩
abbrev S32x32 : Shape := ⟨2, ![32, 32]⟩
abbrev S32x32x1 : Shape := ⟨3, ![32, 32, 1]⟩
abbrev S1x32x128 : Shape := ⟨3, ![1, 32, 128]⟩

abbrev nBuf : Space → Nat
  | .hbm => 48
  | .vmem => 0
  | .smem => 0
  | _ => 0

abbrev bufTy : (tb : Table) → Fin (tcTables nBuf tb) → BufTy
  | .hbm, ⟨0, _⟩ => ⟨S32x128x96x96, .f32⟩
  | .hbm, ⟨1, _⟩ => ⟨S32x128, .f32⟩
  | .hbm, ⟨2, _⟩ => ⟨S32, .f32⟩
  | .hbm, ⟨3, _⟩ => ⟨S32x128x9216, .f32⟩
  | .hbm, ⟨4, _⟩ => ⟨S32x9216x128, .f32⟩
  | .hbm, ⟨5, _⟩ => ⟨S32x9216x128, .f32⟩
  | .hbm, ⟨6, _⟩ => ⟨S_, .f32⟩
  | .hbm, ⟨7, _⟩ => ⟨S32x9216, .f32⟩
  | .hbm, ⟨8, _⟩ => ⟨S32x128, .f32⟩
  | .hbm, ⟨9, _⟩ => ⟨S_, .f32⟩
  | .hbm, ⟨10, _⟩ => ⟨S32, .f32⟩
  | .hbm, ⟨11, _⟩ => ⟨S32x9216x32, .f32⟩
  | .hbm, ⟨12, _⟩ => ⟨S32, .f32⟩
  | .hbm, ⟨13, _⟩ => ⟨S1x1x32, .f32⟩
  | .hbm, ⟨14, _⟩ => ⟨S32x9216x1, .f32⟩
  | .hbm, ⟨15, _⟩ => ⟨S_, .f32⟩
  | .hbm, ⟨16, _⟩ => ⟨S32x9216x32, .f32⟩
  | .hbm, ⟨17, _⟩ => ⟨S32x9216x32, .f32⟩
  | .hbm, ⟨18, _⟩ => ⟨S32x9216x32, .f32⟩
  | .hbm, ⟨19, _⟩ => ⟨S32x9216x32, .f32⟩
  | .hbm, ⟨20, _⟩ => ⟨S1x1x32, .f32⟩
  | .hbm, ⟨21, _⟩ => ⟨S32x9216x32, .f32⟩
  | .hbm, ⟨22, _⟩ => ⟨S32x9216x32, .f32⟩
  | .hbm, ⟨23, _⟩ => ⟨S32x9216x32, .f32⟩
  | .hbm, ⟨24, _⟩ => ⟨S32x9216x32, .f32⟩
  | .hbm, ⟨25, _⟩ => ⟨S_, .f32⟩
  | .hbm, ⟨26, _⟩ => ⟨S32x9216, .f32⟩
  | .hbm, ⟨27, _⟩ => ⟨S_, .f32⟩
  | .hbm, ⟨28, _⟩ => ⟨S32x9216, .f32⟩
  | .hbm, ⟨29, _⟩ => ⟨S32x9216, .f32⟩
  | .hbm, ⟨30, _⟩ => ⟨S32x9216x1, .f32⟩
  | .hbm, ⟨31, _⟩ => ⟨S32x9216x32, .f32⟩
  | .hbm, ⟨32, _⟩ => ⟨S32x9216x32, .f32⟩
  | .hbm, ⟨33, _⟩ => ⟨S32x9216x32, .f32⟩
  | .hbm, ⟨34, _⟩ => ⟨S_, .f32⟩
  | .hbm, ⟨35, _⟩ => ⟨S32x9216, .f32⟩
  | .hbm, ⟨36, _⟩ => ⟨S32x9216x1, .f32⟩
  | .hbm, ⟨37, _⟩ => ⟨S32x9216x32, .f32⟩
  | .hbm, ⟨38, _⟩ => ⟨S32x9216x32, .f32⟩
  | .hbm, ⟨39, _⟩ => ⟨S32x32x128, .f32⟩
  | .hbm, ⟨40, _⟩ => ⟨S_, .f32⟩
  | .hbm, ⟨41, _⟩ => ⟨S32x32, .f32⟩
  | .hbm, ⟨42, _⟩ => ⟨S32x32x1, .f32⟩
  | .hbm, ⟨43, _⟩ => ⟨S1x32x128, .f32⟩
  | .hbm, ⟨44, _⟩ => ⟨S32x32x128, .f32⟩
  | .hbm, ⟨45, _⟩ => ⟨S32x32x128, .f32⟩
  | .hbm, ⟨46, _⟩ => ⟨S32x32x128, .f32⟩
  | .hbm, ⟨47, _⟩ => ⟨S32x32x128, .f32⟩
  | _, _ => ⟨S32x128x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  shapeCasts_S32x128x96x96_S32x128x9216 : S32x128x96x96.ShapeCasts S32x128x9216
  transposes_S32x128x9216_S32x9216x128_0_2_1 : S32x128x9216.Transposes [0, 2, 1] S32x9216x128
  reducesTo_S32x9216x128_S32x9216_d2 : S32x9216x128.ReducesTo [2] S32x9216
  h_S_ : 0 < S_.numel
  reducesTo_S32x128_S32_d1 : S32x128.ReducesTo [1] S32
  bcast_S32_S1x1x32_2 : S32.BroadcastsInDim S1x1x32 (![2] : Fin 1 → Fin S1x1x32.rank)
  bcast_S32x9216_S32x9216x1_0_1 : S32x9216.BroadcastsInDim S32x9216x1 (![0, 1] : Fin 2 → Fin S32x9216x1.rank)
  bcast_S_S32x9216x32 : S_.BroadcastsInDim S32x9216x32 (![] : Fin 0 → Fin S32x9216x32.rank)
  bcast_S32x9216x1_S32x9216x32_0_1_2 : S32x9216x1.BroadcastsInDim S32x9216x32 (![0, 1, 2] : Fin 3 → Fin S32x9216x32.rank)
  bcast_S1x1x32_S32x9216x32_0_1_2 : S1x1x32.BroadcastsInDim S32x9216x32 (![0, 1, 2] : Fin 3 → Fin S32x9216x32.rank)
  reducesTo_S32x9216x32_S32x9216_d2 : S32x9216x32.ReducesTo [2] S32x9216
  bcast_S_S32x9216 : S_.BroadcastsInDim S32x9216 (![] : Fin 0 → Fin S32x9216.rank)
  reducesTo_S32x9216x32_S32x32_d1 : S32x9216x32.ReducesTo [1] S32x32
  bcast_S32x32_S32x32x1_0_1 : S32x32.BroadcastsInDim S32x32x1 (![0, 1] : Fin 2 → Fin S32x32x1.rank)
  bcast_S32x128_S1x32x128_1_2 : S32x128.BroadcastsInDim S1x32x128 (![1, 2] : Fin 2 → Fin S1x32x128.rank)
  bcast_S32x32x1_S32x32x128_0_1_2 : S32x32x1.BroadcastsInDim S32x32x128 (![0, 1, 2] : Fin 3 → Fin S32x32x128.rank)
  bcast_S1x32x128_S32x32x128_0_1_2 : S1x32x128.BroadcastsInDim S32x32x128 (![0, 1, 2] : Fin 3 → Fin S32x32x128.rank)
  dot_S32x9216x128_S32x128_S32x9216x32_2_1_01_0_n_n_wf : DotDims.WF S32x9216x128 S32x128 S32x9216x32 [2] [1] [0, 1] [0] [] []
  dot_S32x9216x32_S32x9216x128_S32x32x128_1_1_2_2_0_0_wf : DotDims.WF S32x9216x32 S32x9216x128 S32x32x128 [1] [1] [2] [2] [0] [0]

variable [Facts₀]

def dot_S32x9216x128_S32x128_S32x9216x32_2_1_01_0_n_n : DotDims S32x9216x128 S32x128 S32x9216x32 where
  lhsContracting := [2]
  rhsContracting := [1]
  lhsNonContracting := [0, 1]
  rhsNonContracting := [0]
  lhsBatch := []
  rhsBatch := []
  wf := dot_S32x9216x128_S32x128_S32x9216x32_2_1_01_0_n_n_wf
def dot_S32x9216x32_S32x9216x128_S32x32x128_1_1_2_2_0_0 : DotDims S32x9216x32 S32x9216x128 S32x32x128 where
  lhsContracting := [1]
  rhsContracting := [1]
  lhsNonContracting := [2]
  rhsNonContracting := [2]
  lhsBatch := [0]
  rhsBatch := [0]
  wf := dot_S32x9216x32_S32x9216x128_S32x32x128_1_1_2_2_0_0_wf

class Facts : Prop extends Facts₀ where

variable [Facts]
-- ==== Proof.Spec.lean ====
/-
  The function both programs compute, written once over the extended reals.

  `X` is the batch of images with its two spatial axes merged, `X b d n` (32 images, 128 channels, 9216 pixels);
  `C k d` are the 32 codewords of 128 channels and `s k` their scales.  For image `b`, codeword `k`, pixel `n`:

    logit b k n  = s_k² · ((‖x_bn‖² − 2·⟨c_k, x_bn⟩) + ‖c_k‖²)        the scaled squared distance, expanded
    top b n      = max over k of logit b k n                             taken from −∞
    weight b k n = exp (logit b k n − top b n)
    assign b k n = weight b k n / Σ_k weight b k n                       the softmax over the codewords
    residual b k d = Σ_n assign b k n · X b d n − (Σ_n assign b k n) · C k d

  The result array is `residual` read at its three coordinates.  Every sum is a sum over a `Fin`, every index
  is built from literal coordinates, and the two literals (2 and −∞) stay as the words the programs print.
-/
import Idealize.ShloMosaic.PureOps.Ideal
import Idealize.ShloMosaic.Lib.ValueIdx

noncomputable section

namespace Cert.Spec

open Idealize.ShloMosaic Idealize.ShloMosaic.ValueIdx

/-- The images with the spatial axes merged, the codewords, the scales, the result. -/
abbrev SX : Shape := ⟨3, ![32, 128, 9216]⟩
abbrev SC : Shape := ⟨2, ![32, 128]⟩
abbrev SS : Shape := ⟨1, ![32]⟩
abbrev SE : Shape := ⟨3, ![32, 32, 128]⟩

/-- The literal 2 of the expanded square and the −∞ the maximum starts from, as the words both programs print. -/
def two : EReal := Ideal.ofBits .f32 0x40000000#32
def negInf : EReal := Ideal.ofBits .f32 0xFF800000#32

variable (X : SX.Idx → EReal) (C : SC.Idx → EReal) (s : SS.Idx → EReal)

/-- ‖c_k‖²: the sum over the channels of a codeword's squares. -/
def cnorm (k : Fin 32) : EReal := ∑ d : Fin 128, C (ix2 k d) * C (ix2 k d)

/-- ‖x_bn‖²: the sum over the channels of a pixel's squares. -/
def xnorm (b : Fin 32) (n : Fin 9216) : EReal := ∑ d : Fin 128, X (ix3 b d n) * X (ix3 b d n)

/-- ⟨c_k, x_bn⟩: the inner product of a codeword with a pixel, over the channels. -/
def inner (b k : Fin 32) (n : Fin 9216) : EReal := ∑ d : Fin 128, C (ix2 k d) * X (ix3 b d n)

/-- The scaled squared distance of pixel `n` of image `b` to codeword `k`, with the square expanded. -/
def logit (b k : Fin 32) (n : Fin 9216) : EReal :=
  (s (ix1 k) * s (ix1 k)) * ((xnorm X b n - two * inner X C b k n) + cnorm C k)

/-- The largest logit of a pixel over the codewords, the maximum taken from −∞. -/
def top (b : Fin 32) (n : Fin 9216) : EReal :=
  (Finset.univ : Finset (Fin 32)).fold max negInf (fun k => logit X C s b k n)

/-- The softmax numerator. -/
def weight (b k : Fin 32) (n : Fin 9216) : EReal := Ideal.exp (logit X C s b k n - top X C s b n)

/-- The softmax denominator: the numerators summed over the codewords. -/
def mass (b : Fin 32) (n : Fin 9216) : EReal := ∑ k : Fin 32, weight X C s b k n

/-- The soft assignment of pixel `n` to codeword `k`. -/
def assign (b k : Fin 32) (n : Fin 9216) : EReal := Ideal.div (weight X C s b k n) (mass X C s b n)

/-- The aggregated residual: the assignment-weighted sum of the pixels minus the total assignment times the codeword. -/
def residual (b k : Fin 32) (d : Fin 128) : EReal :=
  (∑ n : Fin 9216, assign X C s b k n * X (ix3 b d n)) - (∑ n : Fin 9216, assign X C s b k n) * C (ix2 k d)

/-- The result array. -/
def G : SE.Idx → EReal := fun j => residual X C s (j 0) (j 1) (j 2)

theorem G_ix3 (b k : Fin 32) (d : Fin 128) : G X C s (ix3 b k d) = residual X C s b k d := rfl

end Cert.Spec

end
-- ==== Proof.LibMaxFold.lean ====
/-
  Maxima folded over a finite index set, as both programs' softmax takes them: the fold of `max` over the set,
  starting from some value `b` (for the programs, −∞).  Such a fold lies above its starting value and above
  every entry, and nothing smaller does: it is the least upper bound of `b` and the family.  Two consequences are
  used: taking one more maximum with the starting value changes nothing, whatever that value is; and the fold
  only depends on the family through its values, so it may be re-indexed along a bijection.
-/
import Mathlib.Data.EReal.Basic
import Mathlib.Data.Finset.Fold

namespace Cert.LibMaxFold

variable {α : Type*} [LinearOrder α] {ι : Type*}

/-- A fold of `max` lies above the value it starts from. -/
theorem start_le_fold (s : Finset ι) (b : α) (f : ι → α) : b ≤ s.fold max b f :=
  (Finset.le_fold_max b).mpr (Or.inl le_rfl)

/-- One more maximum with the starting value changes nothing. -/
theorem max_start_fold (s : Finset ι) (b : α) (f : ι → α) : max b (s.fold max b f) = s.fold max b f :=
  max_eq_right (start_le_fold s b f)

/-- The same with the operands in the other order. -/
theorem max_fold_start (s : Finset ι) (b : α) (f : ι → α) : max (s.fold max b f) b = s.fold max b f :=
  max_eq_left (start_le_fold s b f)

/-- Two families with the same values have the same fold. -/
theorem fold_congr (s : Finset ι) (b : α) {f g : ι → α} (h : ∀ i ∈ s, f i = g i) :
    s.fold max b f = s.fold max b g :=
  Finset.fold_congr h

end Cert.LibMaxFold
-- ==== Proof.RefSpec.lean ====
/-
  The reference program computes the specification.

  The reference first merges the two spatial axes of the images and then works on that array `X b d n` only, so
  every statement here is about the stages after that first one and takes its result as `X`.  Stage by stage, at
  literal coordinates (image `b`, codeword `k`, pixel `n`, channel `d`):

    the transposed images at (b, n, d) are X at (b, d, n);
    the two sums of squares over the channels are ‖x_bn‖² and ‖c_k‖² (each starts from the zero word: 0 + Σ = Σ);
    the first product of matrices at (b, n, k) is ⟨c_k, x_bn⟩ with the two factors of each term in the other order;
    scaling and adding gives the logit at (b, n, k);
    the maximum over k, taken from −∞, followed by one more maximum with −∞, is the largest logit;
    exponential of the difference, its sum over k and the quotient give the soft assignment at (b, n, k);
    the second product of matrices at (b, k, d) is Σ_n assign · X, the sum over n of the assignment at (b, k) is
    the total assignment, and their combination is the aggregated residual.

  Nothing here needs a value to be finite: the only laws used are commutativity of the product, 0 + x = x, and
  that a maximum folded from a starting value absorbs one more maximum with that value.
-/
import proofs.«146674_j15290083573959_2_alg».proof.Proof.Gen.ReferenceIdeal.Read
import proofs.«146674_j15290083573959_2_alg».proof.Proof.Spec
import proofs.«146674_j15290083573959_2_alg».proof.Proof.LibMaxFold

noncomputable section

namespace Cert.RefSpec

open Cert.ReferenceIdeal Cert.ReferenceIdeal.Gen Cert.ReferenceIdeal.Read Idealize.ShloMosaic Idealize.ShloMosaic.ValueIdx

/-! ## The stages' index functions at literal coordinates -/

theorem idx_v1 (b : Fin 32) (n : Fin 9216) (d : Fin 128) : idx_main_v1 (ix3 b n d) = ix3 b d n :=
  funext fun a => Fin.ext (by match a with | ⟨0, _⟩ => rfl | ⟨1, _⟩ => rfl | ⟨2, _⟩ => rfl)

theorem idx_v3 (b : Fin 32) (n : Fin 9216) (d : Fin 128) : idx_main_v3 (ix2 b n) d = ix3 b n d :=
  funext fun a => Fin.ext (by match a with | ⟨0, _⟩ => rfl | ⟨1, _⟩ => rfl | ⟨2, _⟩ => rfl)

theorem idx_v5 (k : Fin 32) (d : Fin 128) : idx_main_v5 (ix1 k) d = ix2 k d :=
  funext fun a => Fin.ext (by match a with | ⟨0, _⟩ => rfl | ⟨1, _⟩ => rfl)

theorem lidx_v6 (b : Fin 32) (n : Fin 9216) (k : Fin 32) (d : Fin 128) : lidx_main_v6 (ix3 b n k) d = ix3 b n d :=
  funext fun a => Fin.ext (by match a with | ⟨0, _⟩ => rfl | ⟨1, _⟩ => rfl | ⟨2, _⟩ => rfl)

theorem ridx_v6 (b : Fin 32) (n : Fin 9216) (k : Fin 32) (d : Fin 128) : ridx_main_v6 (ix3 b n k) d = ix2 k d :=
  funext fun a => Fin.ext (by match a with | ⟨0, _⟩ => rfl | ⟨1, _⟩ => rfl)

/-- The scales, broadcast twice, are read at the codeword's coordinate. -/
theorem idx_v17 (b : Fin 32) (n : Fin 9216) (k : Fin 32) : idx_main_v8 (idx_main_v17 (ix3 b n k)) = ix1 k :=
  funext fun a => Fin.ext (by match a with | ⟨0, _⟩ => rfl)

/-- A per-pixel quantity, broadcast twice along the codewords, is read at the pixel's coordinates. -/
theorem idx_v12 (b : Fin 32) (n : Fin 9216) (k : Fin 32) : idx_main_v9 (idx_main_v12 (ix3 b n k)) = ix2 b n :=
  funext fun a => Fin.ext (by match a with | ⟨0, _⟩ => rfl | ⟨1, _⟩ => rfl)

theorem idx_v15 (b : Fin 32) (n : Fin 9216) (k : Fin 32) : idx_main_v14 (idx_main_v15 (ix3 b n k)) = ix1 k :=
  funext fun a => Fin.ext (by match a with | ⟨0, _⟩ => rfl)

theorem idx_v23 (b : Fin 32) (n : Fin 9216) (k : Fin 32) : idx_main_v22 (idx_main_v23 (ix3 b n k)) = ix2 b n :=
  funext fun a => Fin.ext (by match a with | ⟨0, _⟩ => rfl | ⟨1, _⟩ => rfl)

theorem idx_v26 (b : Fin 32) (n : Fin 9216) (k : Fin 32) : idx_main_v26 (ix2 b n) k = ix3 b n k :=
  funext fun a => Fin.ext (by match a with | ⟨0, _⟩ => rfl | ⟨1, _⟩ => rfl | ⟨2, _⟩ => rfl)

theorem idx_v28 (b : Fin 32) (n : Fin 9216) (k : Fin 32) : idx_main_v27 (idx_main_v28 (ix3 b n k)) = ix2 b n :=
  funext fun a => Fin.ext (by match a with | ⟨0, _⟩ => rfl | ⟨1, _⟩ => rfl)

theorem lidx_v30 (b k : Fin 32) (d : Fin 128) (n : Fin 9216) : lidx_main_v30 (ix3 b k d) n = ix3 b n k :=
  funext fun a => Fin.ext (by match a with | ⟨0, _⟩ => rfl | ⟨1, _⟩ => rfl | ⟨2, _⟩ => rfl)

theorem ridx_v30 (b k : Fin 32) (d : Fin 128) (n : Fin 9216) : ridx_main_v30 (ix3 b k d) n = ix3 b n d :=
  funext fun a => Fin.ext (by match a with | ⟨0, _⟩ => rfl | ⟨1, _⟩ => rfl | ⟨2, _⟩ => rfl)

theorem idx_v31 (b k : Fin 32) (n : Fin 9216) : idx_main_v31 (ix2 b k) n = ix3 b n k :=
  funext fun a => Fin.ext (by match a with | ⟨0, _⟩ => rfl | ⟨1, _⟩ => rfl | ⟨2, _⟩ => rfl)

theorem idx_v34 (b k : Fin 32) (d : Fin 128) : idx_main_v32 (idx_main_v34 (ix3 b k d)) = ix2 b k :=
  funext fun a => Fin.ext (by match a with | ⟨0, _⟩ => rfl | ⟨1, _⟩ => rfl)

theorem idx_v35 (b k : Fin 32) (d : Fin 128) : idx_main_v33 (idx_main_v35 (ix3 b k d)) = ix2 k d :=
  funext fun a => Fin.ext (by match a with | ⟨0, _⟩ => rfl | ⟨1, _⟩ => rfl)

/-! ## The stages -/

variable (x0 : (⟨S32x128x96x96, .f32⟩ : BufTy).Contents (Elt Ideal))
  (x1 : (⟨S32x128, .f32⟩ : BufTy).Contents (Elt Ideal))
  (x2 : (⟨S32, .f32⟩ : BufTy).Contents (Elt Ideal))

/-- The transposed images at (b, n, d) are the merged images at (b, d, n). -/
theorem v1_at (b : Fin 32) (n : Fin 9216) (d : Fin 128) :
    val_main_v1 (F := Ideal) x0 (ix3 b n d) = val_main_v0 (F := Ideal) x0 (ix3 b d n) := by
  rw [val_main_v1_apply, idx_v1]

/-- The sum over the channels of a pixel's squares. -/
theorem v3_at (b : Fin 32) (n : Fin 9216) :
    val_main_v3 (F := Ideal) x0 (ix2 b n) = Cert.Spec.xnorm (val_main_v0 (F := Ideal) x0) b n := by
  rw [val_main_v3_apply, val_main_cst_apply, Ideal.ofBits_def, Ideal.ofBits_zero_f32, zero_add]
  unfold Cert.Spec.xnorm
  refine Finset.sum_congr rfl fun d _ => ?_
  rw [val_main_v2_apply, idx_v3, v1_at, Ideal.mulf_def]

/-- The sum over the channels of a codeword's squares. -/
theorem v5_at (k : Fin 32) :
    val_main_v5 (F := Ideal) x1 (ix1 k) = Cert.Spec.cnorm x1 k := by
  rw [val_main_v5_apply, val_main_cst_0_apply, Ideal.ofBits_def, Ideal.ofBits_zero_f32, zero_add]
  unfold Cert.Spec.cnorm
  refine Finset.sum_congr rfl fun d _ => ?_
  rw [val_main_v4_apply, idx_v5, Ideal.mulf_def]

/-- The first product of matrices: the inner product of a pixel with a codeword, each term's factors commuted. -/
theorem v6_at (b : Fin 32) (n : Fin 9216) (k : Fin 32) :
    val_main_v6 (F := Ideal) x0 x1 (ix3 b n k) = Cert.Spec.inner (val_main_v0 (F := Ideal) x0) x1 b k n := by
  rw [val_main_v6_apply]
  unfold Cert.Spec.inner
  refine Finset.sum_congr rfl fun d _ => ?_
  rw [lidx_v6, ridx_v6, v1_at, mul_comm]

/-- The scaled, expanded squared distance. -/
theorem v18_at (b : Fin 32) (n : Fin 9216) (k : Fin 32) :
    val_main_v18 (F := Ideal) x0 x1 x2 (ix3 b n k)
      = Cert.Spec.logit (val_main_v0 (F := Ideal) x0) x1 x2 b k n := by
  rw [val_main_v18_apply, val_main_v17_apply, val_main_v8_apply, val_main_v7_apply, idx_v17,
    val_main_v16_apply, val_main_v13_apply, val_main_v12_apply, val_main_v9_apply, idx_v12, v3_at,
    val_main_v11_apply, val_main_v10_apply, val_main_cst_1_apply, v6_at,
    val_main_v15_apply, val_main_v14_apply, idx_v15, v5_at]
  rfl

/-- The maximum over the codewords, folded from −∞: the one stage read by hand, as a fold over the reduced axis's
    coordinates of the operand at the result's index with that coordinate inserted. -/
theorem v19_at (b : Fin 32) (n : Fin 9216) :
    val_main_v19 (F := Ideal) x0 x1 x2 (ix2 b n)
      = Cert.Spec.top (val_main_v0 (F := Ideal) x0) x1 x2 b n := by
  have h : S32x9216x32.Reduces [2] S32x9216 := by decide
  unfold val_main_v19
  refine (Host.reduce_eq_fold_single (f := max) (val_main_v18 (F := Ideal) x0 x1 x2) (val_main_cst_2 (F := Ideal))
    reducesTo_S32x9216x32_S32x9216_d2 h h_S_ (ix2 b n)).trans ?_
  show (Finset.univ : Finset (Fin 32)).fold max (Ideal.ofBits .f32 0xFF800000#32)
      (fun k : Fin 32 => val_main_v18 (F := Ideal) x0 x1 x2 (h.lift (ix2 b n) k)) = _
  unfold Cert.Spec.top Cert.Spec.negInf
  refine Finset.fold_congr fun (k : Fin 32) _ => ?_
  have e : h.lift (ix2 b n) k = ix3 b n k := funext fun a => Fin.ext (by match a with | ⟨0, _⟩ => rfl | ⟨1, _⟩ => rfl | ⟨2, _⟩ => rfl)
  show val_main_v18 (F := Ideal) x0 x1 x2 (h.lift (ix2 b n) k) = _
  rw [e, v18_at]

/-- One more maximum with −∞ changes nothing. -/
theorem v21_at (b : Fin 32) (n : Fin 9216) :
    val_main_v21 (F := Ideal) x0 x1 x2 (ix2 b n)
      = Cert.Spec.top (val_main_v0 (F := Ideal) x0) x1 x2 b n := by
  rw [val_main_v21_apply, val_main_v20_apply, val_main_cst_3_apply, v19_at, Ideal.maximumf_def, Ideal.ofBits_def]
  unfold Cert.Spec.top Cert.Spec.negInf
  exact Cert.LibMaxFold.max_start_fold _ _ _

/-- The softmax numerator. -/
theorem v25_at (b : Fin 32) (n : Fin 9216) (k : Fin 32) :
    val_main_v25 (F := Ideal) x0 x1 x2 (ix3 b n k)
      = Cert.Spec.weight (val_main_v0 (F := Ideal) x0) x1 x2 b k n := by
  rw [val_main_v25_apply, val_main_v24_apply, v18_at, val_main_v23_apply, val_main_v22_apply, idx_v23, v21_at]
  rfl

/-- The softmax denominator. -/
theorem v26_at (b : Fin 32) (n : Fin 9216) :
    val_main_v26 (F := Ideal) x0 x1 x2 (ix2 b n)
      = Cert.Spec.mass (val_main_v0 (F := Ideal) x0) x1 x2 b n := by
  rw [val_main_v26_apply, val_main_cst_4_apply, Ideal.ofBits_def, Ideal.ofBits_zero_f32, zero_add]
  unfold Cert.Spec.mass
  refine Finset.sum_congr rfl fun k _ => ?_
  rw [idx_v26, v25_at]

/-- The soft assignment. -/
theorem v29_at (b : Fin 32) (n : Fin 9216) (k : Fin 32) :
    val_main_v29 (F := Ideal) x0 x1 x2 (ix3 b n k)
      = Cert.Spec.assign (val_main_v0 (F := Ideal) x0) x1 x2 b k n := by
  rw [val_main_v29_apply, v25_at, val_main_v28_apply, val_main_v27_apply, idx_v28, v26_at]
  rfl

/-- The second product of matrices: the assignment-weighted sum of the pixels. -/
theorem v30_at (b k : Fin 32) (d : Fin 128) :
    val_main_v30 (F := Ideal) x0 x1 x2 (ix3 b k d)
      = ∑ n : Fin 9216, Cert.Spec.assign (val_main_v0 (F := Ideal) x0) x1 x2 b k n
          * val_main_v0 (F := Ideal) x0 (ix3 b d n) := by
  rw [val_main_v30_apply]
  refine Finset.sum_congr rfl fun n _ => ?_
  rw [lidx_v30, ridx_v30, v29_at, v1_at]

/-- The total assignment of an image's pixels to a codeword. -/
theorem v31_at (b k : Fin 32) :
    val_main_v31 (F := Ideal) x0 x1 x2 (ix2 b k)
      = ∑ n : Fin 9216, Cert.Spec.assign (val_main_v0 (F := Ideal) x0) x1 x2 b k n := by
  rw [val_main_v31_apply, val_main_cst_5_apply, Ideal.ofBits_def, Ideal.ofBits_zero_f32, zero_add]
  refine Finset.sum_congr rfl fun n _ => ?_
  rw [idx_v31, v29_at]

/-- The total assignment times the codeword. -/
theorem v36_at (b k : Fin 32) (d : Fin 128) :
    val_main_v36 (F := Ideal) x0 x1 x2 (ix3 b k d)
      = (∑ n : Fin 9216, Cert.Spec.assign (val_main_v0 (F := Ideal) x0) x1 x2 b k n) * x1 (ix2 k d) := by
  rw [val_main_v36_apply, val_main_v34_apply, val_main_v32_apply, idx_v34, v31_at,
    val_main_v35_apply, val_main_v33_apply, idx_v35, Ideal.mulf_def]

/-- The aggregated residual. -/
theorem v37_at (b k : Fin 32) (d : Fin 128) :
    val_main_v37 (F := Ideal) x0 x1 x2 (ix3 b k d)
      = Cert.Spec.residual (val_main_v0 (F := Ideal) x0) x1 x2 b k d := by
  rw [val_main_v37_apply, v30_at, v36_at, Ideal.subf_def]
  rfl

/-- The reference's result is the specification of the merged images, the codewords and the scales. -/
theorem val_main_v37_eq_G
    (x0 : (⟨Cert.ReferenceIdeal.S32x128x96x96, .f32⟩ : BufTy).Contents (Elt Ideal))
    (x1 : (⟨Cert.ReferenceIdeal.S32x128, .f32⟩ : BufTy).Contents (Elt Ideal))
    (x2 : (⟨Cert.ReferenceIdeal.S32, .f32⟩ : BufTy).Contents (Elt Ideal)) :
    Cert.ReferenceIdeal.Read.val_main_v37 (F := Ideal) x0 x1 x2
      = Cert.Spec.G (Cert.ReferenceIdeal.Read.val_main_v0 (F := Ideal) x0) x1 x2 := by
  funext j
  obtain ⟨b, k, d, rfl⟩ : ∃ (b : Fin 32) (k : Fin 32) (d : Fin 128), j = ix3 b k d := ⟨j 0, j 1, j 2, eq_ix3 j⟩
  rw [v37_at, Cert.Spec.G_ix3]

end Cert.RefSpec

end
-- ==== Proof.KernelWindows.lean ====
/-
  Where the region's windows sit in their arrays.

  Before the region the host merges the two spatial axes of the images (a reshape of [32,128,96,96] to
  [32,128,9216]) and turns the scales into a column (a reshape of [32] to [32,1]); the region then runs over a grid
  of sixteen points `t`.  This module says what the region finds and where each block lies:

    the merged images are the reshape of the first argument, and the column of scales at (k, 0) is the scale k:
      both reshapes keep the row-major position, and k · 1 + 0 = k;
    the images' block at point t holds the two images 2t and 2t + 1: its element (q, d, n) is the merged images'
      element (2t + q, d, n) — on each axis a block's element sits at block index × block size + its own
      coordinate, and the block index is (t, 0, 0);
    the codewords' and the scales' blocks are their whole arrays at every point (block index (0, 0));
    the result's block at point t is likewise rows 2t and 2t + 1 of the result, so the sixteen blocks cover the
      result array: row r lies in the block of point r / 2.

  The block indices are the printed index maps evaluated at the sixteen points, decided once.
-/
import proofs.«146674_j15290083573959_2_alg».proof.Proof.Gen.KernelIdeal.Value
import Idealize.ShloMosaic.Lib.ValueIdx
import Idealize.ShloMosaic.Lib.Pipeline.Value
import Idealize.ShloMosaic.Lib.StableHlo.Run

noncomputable section

namespace Cert.KernelWindows

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The region finds the merged images: the reshape of the first argument (not opened further). -/
theorem V_v0 (c : Dev nD) :
    (V m c main_v0 : S32x128x9216.Idx → Elt F .f32)
      = shapeCast S32x128x9216 (m ((c : Thread nD τ).loc main_arg0)) shapeCasts_S32x128x96x96_S32x128x9216 := by
  dsimp only [Gen.V, Gen.hostOps0]; after_results; rfl

/-- The region finds the scales as a column: the reshape of the third argument. -/
theorem V_v1 (c : Dev nD) :
    (V m c main_v1 : S32x1.Idx → Elt F .f32)
      = shapeCast S32x1 (m ((c : Thread nD τ).loc main_arg2)) shapeCasts_S32_S32x1 := by
  dsimp only [Gen.V, Gen.hostOps0]; after_results; rfl

/-- The column of scales at (k, 0) is the scale k: both positions are k in row-major order. -/
theorem V_v1_apply (c : Dev nD) (k : Fin 32) :
    V m c main_v1 (ix2 k (0 : Fin 1)) = m ((c : Thread nD τ).loc main_arg2) (ix1 k) := by
  have e := congrFun (V_v1 m c) (ix2 k (0 : Fin 1))
  refine e.trans ?_
  refine shapeCast_apply _ shapeCasts_S32_S32x1 (ix2 k (0 : Fin 1)) (ix1 k) ?_
  rw [Shape.rowMajor_val_one, Shape.rowMajor_val_two]
  show k.val = k.val * 1 + 0
  omega

/-- The printed index maps at every point of the grid: the images' and the result's block index is (t, 0, 0), the
    codewords' and the scales' is (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The grid has sixteen points. -/
theorem point_lt (t : Fin cfg0.N) : t.val < 16 := by
  have h : t.val < grid0.N := t.isLt
  rw [Gen.N_0] at h
  exact h

/-- The images' block at point t, at (q, d, n), is the merged images at (2t + q, d, n). -/
theorem iblk0_apply (c : Dev nD) (t : Fin cfg0.N) (q : Fin 2) (d : Fin 128) (n : Fin 9216) :
    iblk m c 0 t (ix3 q d n)
      = V m c main_v0 (ix3 (⟨2 * t.val + q.val, by have := point_lt t; have := q.isLt; omega⟩ : Fin 32) d n) := by
  show V m c main_v0 (((cfg0.win 0).blk t).view.emb (ix3 q d n)) = _
  obtain ⟨e0, e1, e2, -⟩ := idx_facts t
  refine congrArg (V m c main_v0) (funext fun a => Fin.ext ?_)
  match a with
  | ⟨0, _⟩ => show win0_0.index t (0 : Fin 3) * 2 + 1 * q.val = 2 * t.val + q.val; omega
  | ⟨1, _⟩ => show win0_0.index t (1 : Fin 3) * 128 + 1 * d.val = d.val; omega
  | ⟨2, _⟩ => show win0_0.index t (2 : Fin 3) * 9216 + 1 * n.val = n.val; omega

/-- The codewords' block at any point is the codewords' array. -/
theorem iblk1_apply (c : Dev nD) (t : Fin cfg0.N) (k : Fin 32) (d : Fin 128) :
    iblk m c 1 t (ix2 k d) = m ((c : Thread nD τ).loc main_arg1) (ix2 k d) := by
  show V m c main_arg1 (((cfg0.win 1).blk t).view.emb (ix2 k d)) = _
  rw [V_main_arg1]
  obtain ⟨-, -, -, e0, e1, -⟩ := idx_facts t
  refine congrArg (m ((c : Thread nD τ).loc main_arg1)) (funext fun a => Fin.ext ?_)
  match a with
  | ⟨0, _⟩ => show win0_1.index t (0 : Fin 2) * 32 + 1 * k.val = k.val; omega
  | ⟨1, _⟩ => show win0_1.index t (1 : Fin 2) * 128 + 1 * d.val = d.val; omega

/-- The scales' block at any point, at (k, 0), is the scale k. -/
theorem iblk2_apply (c : Dev nD) (t : Fin cfg0.N) (k : Fin 32) :
    iblk m c 2 t (ix2 k (0 : Fin 1)) = m ((c : Thread nD τ).loc main_arg2) (ix1 k) := by
  show V m c main_v1 (((cfg0.win 2).blk t).view.emb (ix2 k (0 : Fin 1))) = _
  obtain ⟨-, -, -, -, -, e0, e1, -⟩ := idx_facts t
  have e : ((cfg0.win 2).blk t).view.emb (ix2 k (0 : Fin 1)) = ix2 k (0 : Fin 1) := funext fun a => Fin.ext (by
    match a with
    | ⟨0, _⟩ => show win0_2.index t (0 : Fin 2) * 32 + 1 * k.val = k.val; omega
    | ⟨1, _⟩ => show win0_2.index t (1 : Fin 2) * 1 + 1 * 0 = 0; omega)
  rw [e]
  exact V_v1_apply m c k

/-- The result's block at point t: its element (q, k, d) sits in the result array at (2t + q, k, d). -/
theorem blk3_emb (t : Fin cfg0.N) (q : Fin 2) (k : Fin 32) (d : Fin 128) :
    ((cfg0.win 3).blk t).view.emb (ix3 q k d)
      = ix3 (⟨2 * t.val + q.val, by have := point_lt t; have := q.isLt; omega⟩ : Fin 32) k d := by
  obtain ⟨-, -, -, -, -, -, -, e0, e1, e2⟩ := idx_facts t
  funext a; apply Fin.ext
  match a with
  | ⟨0, _⟩ => show win0_3.index t (0 : Fin 3) * 2 + 1 * q.val = 2 * t.val + q.val; omega
  | ⟨1, _⟩ => show win0_3.index t (1 : Fin 3) * 32 + 1 * k.val = k.val; omega
  | ⟨2, _⟩ => show win0_3.index t (2 : Fin 3) * 128 + 1 * d.val = d.val; omega

/-- An index of the result array is in point t's block iff each coordinate is in the block's range on its axis. -/
theorem mem_blk3 (t : Fin cfg0.N) (i : S32x32x128.Idx) :
    i ∈ ((cfg0.win 3).blk t).view.set
      ↔ ∀ a : Fin 3, win0_3.index t a * S2x32x128.size a ≤ (i a).val
          ∧ (i a).val < win0_3.index t a * S2x32x128.size a + S2x32x128.size a := by
  show i ∈ ((View.whole main_v2).slice (win0_3.rect t)).set ↔ _
  rw [View.set_slice_whole, Rect.mem_set_unit]
  exact Iff.rfl

/-- The sixteen blocks cover the result array: row r is in the block of point r / 2, and every point writes back. -/
theorem cover3 : ∀ i : S32x32x128.Idx,
    ∃ t : Fin cfg0.N, (cfg0.win 3).flush t = true ∧ i ∈ ((cfg0.win 3).blk t).view.set := by
  intro i
  have h0 : (i 0).val < 32 := (i 0).isLt
  have h1 : (i 1).val < 32 := (i 1).isLt
  have h2 : (i 2).val < 128 := (i 2).isLt
  obtain ⟨t, ht⟩ : ∃ t : Fin cfg0.N, t.val = (i 0).val / 2 :=
    ⟨⟨(i 0).val / 2, by show (i 0).val / 2 < grid0.N; rw [Gen.N_0]; omega⟩, rfl⟩
  obtain ⟨-, -, -, -, -, -, -, e0, e1, e2⟩ := idx_facts t
  refine ⟨t, flush0_3 t, ?_⟩
  rw [mem_blk3]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 32 ≤ (i 1).val ∧ (i 1).val < win0_3.index t (1 : Fin 3) * 32 + 32; omega
  | ⟨2, _⟩ => show win0_3.index t (2 : Fin 3) * 128 ≤ (i 2).val ∧ (i 2).val < win0_3.index t (2 : Fin 3) * 128 + 128; omega

end Cert.KernelWindows
end
-- ==== Proof.KernelPieces.lean ====
/-
  What one grid point leaves in the output's staging block.

  A grid point stages a pair of images (a block of two slabs, each 128 channels by 9216 pixels), the codewords and
  the scales.  Its body runs a two-trip loop: trip `q` loads slab `q` of the pair, computes from it, the codewords
  and the scales one 32 × 128 tile, and stores the tile as row `q` of the 2 × 32 × 128 output block.  So after the
  body the block is one function of its index: at `(q, k, d)` it holds the tile of slab `q` at `(k, d)`.

  Below: the one store each trip makes (its rectangle is row `q`, its value the tile of the slab the trip loads);
  the body's two stores, last trip first; and the block they leave, read at any index.
-/
import proofs.«146674_j15290083573959_2_alg».proof.Proof.Gen.KernelIdeal.Frame
import Idealize.ShloMosaic.Lib.ValueIdx
import Idealize.ShloMosaic.Lib.Pipeline.Value

set_option maxRecDepth 16384

noncomputable section

namespace Cert.KernelValue

open Cert.KernelIdeal Cert.KernelIdeal.Gen
open Idealize.ShloMosaic Idealize.ShloMosaic.TcCoe Idealize.ShloMosaic.ValueIdx Idealize.SL.Sem

variable {F : FTy → Type} [FloatOps F]

/-- Slab `q` of a staged pair of images, as a block with a leading unit axis (the form the body loads it in). -/
def slab (x0 : Vec F S2x128x9216 .f32) (q : Fin 2) : Vec F S1x128x9216 .f32 :=
  fun z => x0 (ix3 q (⟨(z 1).val, (z 1).isLt⟩ : Fin 128) (⟨(z 2).val, (z 2).isLt⟩ : Fin 9216))

theorem slab_ix3 (x0 : Vec F S2x128x9216 .f32) (q : Fin 2) (u : Fin 1) (d : Fin 128) (n : Fin 9216) :
    slab x0 q (ix3 u d n) = x0 (ix3 q d n) := rfl

/-- The output block a grid point leaves, as one function of the block's index: row `q` is the tile computed from
    slab `q`, the codewords `x1` and the scales `x2`. -/
def blockFn (x0 : Vec F S2x128x9216 .f32) (x1 : Vec F S32x128 .f32) (x2 : Vec F S32x1 .f32) : Vec F S2x32x128 .f32 :=
  fun y => k0_pay1 x1 x2 (slab x0 (⟨(y 0).val, (y 0).isLt⟩ : Fin 2))
    (ix3 (0 : Fin 1) (⟨(y 1).val, (y 1).isLt⟩ : Fin 32) (⟨(y 2).val, (y 2).isLt⟩ : Fin 128))

/-- The loop makes two trips. -/
theorem trips_eq : k0_t1_loop.trips = 2 := by decide +kernel

theorem zero_lt_trips : 0 < k0_t1_loop.trips := by rw [trips_eq]; omega
theorem one_lt_trips : 1 < k0_t1_loop.trips := by rw [trips_eq]; omega

/-- The first and the second trip. -/
abbrev trip0 : Fin k0_t1_loop.trips := ⟨0, zero_lt_trips⟩
abbrev trip1 : Fin k0_t1_loop.trips := ⟨1, one_lt_trips⟩

/-- Trip `k` makes one store: into row `k` of the block, the tile of the slab it loads at row `k` of the pair. -/
theorem trip_piece (𝒱 : Variants) (c : Dev nD) (bd : Option 𝒱.V) (i : grid0.Coords) (arg1 : Memref sig .tc .vmem S2x128x9216 .f32) (harg1 : arg1.IsWhole) (arg2 : Memref sig .tc .vmem S32x128 .f32) (harg2 : arg2.IsWhole) (arg3 : Memref sig .tc .vmem S32x1 .f32) (harg3 : arg3.IsWhole) (arg4 : Memref sig .tc .vmem S2x32x128 .f32) (harg4 : arg4.IsWhole)
    (v0 : Vec F S32x128 .f32) (v1 : Vec F S32x1 .f32) (X_arg1 : BufTy.Contents (Elt F) arg1.view.ty) (k : Fin k0_t1_loop.trips) :
    tripL_k0_t1 (F := F) 𝒱 c bd i arg1 harg1 arg2 harg2 arg3 harg3 arg4 harg4 v0 v1 X_arg1 k
      = [(⟨Rect.unit (s := S2x32x128) (k0_off2 k) S1x32x128.size (k0_off2_inb k),
            k0_pay1 v0 v1 (View.readAt (Elt F) arg1.view (Rect.unit (s := S2x128x9216) (k0_off1 k) S1x128x9216.size (k0_off1_inb k)).toLoadRect X_arg1)⟩
          : View.Piece (Elt F) S2x32x128 .f32)] := by
  unfold tripL_k0_t1 trip_k0_t1
  rfl

/-- The body's stores are the loop's, over its two trips, from the codewords and scales it loads whole. -/
theorem run_pieces (c : Dev nD) (i : grid0.Coords) (arg1 : Memref sig .tc .vmem S2x128x9216 .f32) (harg1 : arg1.IsWhole) (arg2 : Memref sig .tc .vmem S32x128 .f32) (harg2 : arg2.IsWhole) (arg3 : Memref sig .tc .vmem S32x1 .f32) (harg3 : arg3.IsWhole) (arg4 : Memref sig .tc .vmem S2x32x128 .f32) (harg4 : arg4.IsWhole)
    (x0 : Vec F S2x128x9216 .f32) (x1 : Vec F S32x128 .f32) (x2 : Vec F S32x1 .f32) :
    (kernelRun0_A (F := F) c i arg1 harg1 arg2 harg2 arg3 harg3 arg4 harg4 x0 x1 x2).1
      = pb_k0_t1 (F := F) Variants.none c none i arg1 harg1 arg2 harg2 arg3 harg3 arg4 harg4
          (View.readAt (Elt F) arg2.view (Rect.unit (s := S32x128) ![0, 0] S32x128.size inb_S32x128_S32x128_0_0).toLoadRect (harg2.unread x1))
          (View.readAt (Elt F) arg3.view (Rect.unit (s := S32x1) ![0, 0] S32x1.size inb_S32x1_S32x1_0_0).toLoadRect (harg3.unread x2))
          (harg1.unread x0) k0_t1_loop.trips := by
  unfold kernelRun0_A
  rfl

/-! ## The loads -/

theorem zeros2 : (![0, 0] : Fin 2 → Nat) = fun _ => 0 := funext fun a => by fin_cases a <;> rfl

/-- The body loads the codewords whole: it reads the staged block. -/
theorem load_codewords (arg2 : Memref sig .tc .vmem S32x128 .f32) (harg2 : arg2.IsWhole) (x1 : Vec F S32x128 .f32) :
    View.readAt (Elt F) arg2.view (Rect.unit (s := S32x128) ![0, 0] S32x128.size inb_S32x128_S32x128_0_0).toLoadRect (harg2.unread x1) = x1 := by
  rw [View.readAt_eq_ld, harg2.read_unread, View.ld_unit_zero (S := S32x128) zeros2]

/-- The body loads the scales whole: it reads the staged block. -/
theorem load_scales (arg3 : Memref sig .tc .vmem S32x1 .f32) (harg3 : arg3.IsWhole) (x2 : Vec F S32x1 .f32) :
    View.readAt (Elt F) arg3.view (Rect.unit (s := S32x1) ![0, 0] S32x1.size inb_S32x1_S32x1_0_0).toLoadRect (harg3.unread x2) = x2 := by
  rw [View.readAt_eq_ld, harg3.read_unread, View.ld_unit_zero (S := S32x1) zeros2]

/-- Trip `k` loads slab `k` of the staged pair: its rectangle starts at row `k` and is one row deep. -/
theorem load_slab (arg1 : Memref sig .tc .vmem S2x128x9216 .f32) (harg1 : arg1.IsWhole) (x0 : Vec F S2x128x9216 .f32)
    (k : Fin k0_t1_loop.trips) (hk : k.val < 2) :
    View.readAt (Elt F) arg1.view (Rect.unit (s := S2x128x9216) (k0_off1 k) S1x128x9216.size (k0_off1_inb k)).toLoadRect (harg1.unread x0)
      = slab x0 ⟨k.val, hk⟩ := by
  rw [View.readAt_eq_ld, harg1.read_unread]
  funext z
  show x0 _ = x0 _
  refine congrArg x0 (funext fun a => Fin.ext ?_)
  have hz0 : (z 0).val < 1 := (z 0).isLt
  have e0 : k0_off1 k 0 = k.val := congrFun (k0_off1_eq k) 0
  have e1 : k0_off1 k 1 = 0 := congrFun (k0_off1_eq k) 1
  have e2 : k0_off1 k 2 = 0 := congrFun (k0_off1_eq k) 2
  match a with
  | ⟨0, _⟩ => show k0_off1 k 0 + 1 * (z 0).val = k.val; omega
  | ⟨1, _⟩ => show k0_off1 k 1 + 1 * (z 1).val = (z 1).val; omega
  | ⟨2, _⟩ => show k0_off1 k 2 + 1 * (z 2).val = (z 2).val; omega

/-! ## The body's two stores -/

/-- The store of trip `k`: row `k` of the block receives the tile of slab `k`. -/
def rowPiece (x0 : Vec F S2x128x9216 .f32) (x1 : Vec F S32x128 .f32) (x2 : Vec F S32x1 .f32)
    (k : Fin k0_t1_loop.trips) (hk : k.val < 2) : View.Piece (Elt F) S2x32x128 .f32 :=
  ⟨Rect.unit (s := S2x32x128) (k0_off2 k) S1x32x128.size (k0_off2_inb k), k0_pay1 x1 x2 (slab x0 ⟨k.val, hk⟩)⟩

/-- The body's stores, last first: the second trip's, then the first trip's. -/
theorem run_two_pieces (c : Dev nD) (i : grid0.Coords) (arg1 : Memref sig .tc .vmem S2x128x9216 .f32) (harg1 : arg1.IsWhole) (arg2 : Memref sig .tc .vmem S32x128 .f32) (harg2 : arg2.IsWhole) (arg3 : Memref sig .tc .vmem S32x1 .f32) (harg3 : arg3.IsWhole) (arg4 : Memref sig .tc .vmem S2x32x128 .f32) (harg4 : arg4.IsWhole)
    (x0 : Vec F S2x128x9216 .f32) (x1 : Vec F S32x128 .f32) (x2 : Vec F S32x1 .f32) :
    (kernelRun0_A (F := F) c i arg1 harg1 arg2 harg2 arg3 harg3 arg4 harg4 x0 x1 x2).1
      = [rowPiece x0 x1 x2 trip1 Nat.one_lt_two, rowPiece x0 x1 x2 trip0 Nat.zero_lt_two] := by
  rw [run_pieces, load_codewords, load_scales]
  refine (congrArg (pb_k0_t1 (F := F) Variants.none c none i arg1 harg1 arg2 harg2 arg3 harg3 arg4 harg4 x1 x2 (harg1.unread x0)) trips_eq).trans ?_
  refine (pb_k0_t1_succ (F := F) Variants.none c none i arg1 harg1 arg2 harg2 arg3 harg3 arg4 harg4 x1 x2 (harg1.unread x0) trip1).trans ?_
  rw [trip_piece, load_slab arg1 harg1 x0 trip1 Nat.one_lt_two]
  refine congrArg (fun L => _ :: L) ?_
  refine (pb_k0_t1_succ (F := F) Variants.none c none i arg1 harg1 arg2 harg2 arg3 harg3 arg4 harg4 x1 x2 (harg1.unread x0) trip0).trans ?_
  rw [trip_piece, load_slab arg1 harg1 x0 trip0 Nat.zero_lt_two]
  rfl

/-- Each store's value is the tile of `blockFn` its rectangle names: at the rectangle's local index `x` it is
    `blockFn` at the block index `x` is placed at (row `k`, then `x`'s own two coordinates). -/
theorem rowPiece_tile (x0 : Vec F S2x128x9216 .f32) (x1 : Vec F S32x128 .f32) (x2 : Vec F S32x1 .f32)
    (k : Fin k0_t1_loop.trips) (hk : k.val < 2) (x : (rowPiece x0 x1 x2 k hk).1.shape.Idx) :
    (rowPiece x0 x1 x2 k hk).2 x = blockFn x0 x1 x2 ((rowPiece x0 x1 x2 k hk).1.emb x) := by
  have e0 : k0_off2 k 0 = k.val := congrFun (k0_off2_eq k) 0
  have e1 : k0_off2 k 1 = 0 := congrFun (k0_off2_eq k) 1
  have e2 : k0_off2 k 2 = 0 := congrFun (k0_off2_eq k) 2
  have hx0 : (x 0).val < 1 := (x 0).isLt
  have hq : (⟨(((rowPiece x0 x1 x2 k hk).1.emb x) 0).val, (((rowPiece x0 x1 x2 k hk).1.emb x) 0).isLt⟩ : Fin 2) = ⟨k.val, hk⟩ :=
    Fin.ext (by show k0_off2 k 0 + 1 * (x 0).val = k.val; omega)
  have hy : ix3 (0 : Fin 1) (⟨(((rowPiece x0 x1 x2 k hk).1.emb x) 1).val, (((rowPiece x0 x1 x2 k hk).1.emb x) 1).isLt⟩ : Fin 32)
      (⟨(((rowPiece x0 x1 x2 k hk).1.emb x) 2).val, (((rowPiece x0 x1 x2 k hk).1.emb x) 2).isLt⟩ : Fin 128) = x :=
    funext fun a => Fin.ext (by
      match a with
      | ⟨0, _⟩ => show 0 = (x 0).val; omega
      | ⟨1, _⟩ => show k0_off2 k 1 + 1 * (x 1).val = (x 1).val; omega
      | ⟨2, _⟩ => show k0_off2 k 2 + 1 * (x 2).val = (x 2).val; omega)
  show k0_pay1 x1 x2 (slab x0 ⟨k.val, hk⟩) x = k0_pay1 x1 x2 (slab x0 _) (ix3 (0 : Fin 1) _ _)
  rw [hq, hy]

/-! ## The block the body leaves -/

/-- After the body the output's staging block is `blockFn` of the staged blocks, at every index: the two stores
    are tiles of that one function, and together they cover the block. -/
theorem out_apply (c : Dev nD) (i : grid0.Coords) (arg1 : Memref sig .tc .vmem S2x128x9216 .f32) (harg1 : arg1.IsWhole) (arg2 : Memref sig .tc .vmem S32x128 .f32) (harg2 : arg2.IsWhole) (arg3 : Memref sig .tc .vmem S32x1 .f32) (harg3 : arg3.IsWhole) (arg4 : Memref sig .tc .vmem S2x32x128 .f32) (harg4 : arg4.IsWhole)
    (x0 : Vec F S2x128x9216 .f32) (x1 : Vec F S32x128 .f32) (x2 : Vec F S32x1 .f32) (y : S2x32x128.Idx) :
    out0_A_3 (F := F) c i arg1 harg1 arg2 harg2 arg3 harg3 arg4 harg4 x0 x1 x2 y = blockFn x0 x1 x2 y := by
  unfold out0_A_3
  rw [View.read_writes_junk_eq_canon]
  refine View.canon_apply_of_pieces (blockFn x0 x1 x2) _ ?_ y (cover0_A_3 c i arg1 harg1 arg2 harg2 arg3 harg3 arg4 harg4 x0 x1 x2 y)
  rw [run_two_pieces]
  intro p hp x
  rcases List.mem_cons.mp hp with rfl | hp
  · exact rowPiece_tile x0 x1 x2 _ _ x
  · rcases List.mem_cons.mp hp with rfl | hp
    · exact rowPiece_tile x0 x1 x2 _ _ x
    · exact absurd hp List.not_mem_nil

end Cert.KernelValue

end
-- ==== Proof.KernelPay.lean ====
/-
  The kernel's arithmetic at an index.

  The body's arithmetic is one pure term over the three blocks it loads — the codewords `[32, 128]`, the scales
  `[32, 1]` and the slab `[1, 128, 9216]` of one image —: squared norms by lane and sublane sums, the inner products by
  a matrix product, the logits from them by broadcasts, the softmax over the codewords by a maximum, an exponential, a
  sum and a division, and last the weighted pixel sums by a second matrix product, less the total weights times the
  codewords. Here that term is read at one index of the block it stores, at the ideal values (every operation exact,
  a change of format the identity), and found to be the specification's `residual` of the arrays the blocks were
  loaded from.

  The route: the two keepdims column layouts at an index; each reduction of the body as a `Fin`-indexed sum or
  maximum, each matrix product as a `Fin`-indexed sum of products, at literal coordinates; the body's intermediate
  arrays as named terms whose composition is the payload by unfolding; each named array at an index as the
  specification's function of the same name, in the order the body computes them. No algebraic law is used: the
  specification groups and orders its factors as the body does.
-/
import proofs.«146674_j15290083573959_2_alg».proof.Proof.Gen.KernelIdeal.Skeleton
import proofs.«146674_j15290083573959_2_alg».proof.Proof.Spec
import proofs.«146674_j15290083573959_2_alg».proof.Proof.LibMaxFold
import Idealize.ShloMosaic.Lib.ValueIdx
import Idealize.ShloMosaic.Lib.ValueLayout
import Idealize.ShloMosaic.Lib.Pipeline.Value
import Idealize.ShloMosaic.PureOps.Ideal.Laws

noncomputable section

namespace Cert.KernelPay

open Idealize.ShloMosaic Idealize.ShloMosaic.ValueIdx
open Cert.KernelIdeal Cert.KernelIdeal.Gen

/-! ## The two column forms of a keepdims layout -/

/-- A vector `[a]` cast to a column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions of the body, each read at an index as a sum or a maximum over one coordinate -/

/-- The sum along the 128 channels of a `[32, 128]` block, at codeword `k`. -/
theorem rowsum128_apply (v : FVec Ideal S32x128 .f32) (k : Fin 32) :
    multiReduction .add [1] S32 v 0x00000000#32 reduces_S32x128_S32 (.inl rfl) rfl (ix1 k)
      = ∑ d : Fin 128, v (ix2 k d) := by
  refine (Ideal.multiReduction_add_single v _ _ _ _ (ix1 k)).trans ?_
  exact Finset.sum_congr rfl fun d _ => congrArg v (funext fun a => Fin.ext (by
    match a with
    | ⟨0, _⟩ => rfl
    | ⟨1, _⟩ => rfl))

/-- The sum down the 128 channels of a `[128, 9216]` slab, at pixel `n`. -/
theorem colsum128_apply (v : FVec Ideal S128x9216 .f32) (n : Fin 9216) :
    multiReduction .add [0] S9216 v 0x00000000#32 reduces_S128x9216_S9216 (.inl rfl) rfl (ix1 n)
      = ∑ d : Fin 128, v (ix2 d n) := by
  refine (Ideal.multiReduction_add_single v _ _ _ _ (ix1 n)).trans ?_
  exact Finset.sum_congr rfl fun d _ => congrArg v (funext fun a => Fin.ext (by
    match a with
    | ⟨0, _⟩ => rfl
    | ⟨1, _⟩ => rfl))

/-- The sum down the 32 codewords of a `[32, 9216]` array, at pixel `n`. -/
theorem colsum32_apply (v : FVec Ideal S32x9216 .f32) (n : Fin 9216) :
    multiReduction .add [0] S9216 v 0x00000000#32 reduces_S32x9216_S9216 (.inl rfl) rfl (ix1 n)
      = ∑ k : Fin 32, v (ix2 k n) := by
  refine (Ideal.multiReduction_add_single v _ _ _ _ (ix1 n)).trans ?_
  exact Finset.sum_congr rfl fun k _ => congrArg v (funext fun a => Fin.ext (by
    match a with
    | ⟨0, _⟩ => rfl
    | ⟨1, _⟩ => rfl))

/-- The sum along the 9216 pixels of a `[32, 9216]` array, at codeword `k`. -/
theorem rowsum9216_apply (v : FVec Ideal S32x9216 .f32) (k : Fin 32) :
    multiReduction .add [1] S32 v 0x00000000#32 reduces_S32x9216_S32 (.inl rfl) rfl (ix1 k)
      = ∑ n : Fin 9216, v (ix2 k n) := by
  refine (Ideal.multiReduction_add_single v _ _ _ _ (ix1 k)).trans ?_
  exact Finset.sum_congr rfl fun n _ => congrArg v (funext fun a => Fin.ext (by
    match a with
    | ⟨0, _⟩ => rfl
    | ⟨1, _⟩ => rfl))

/-- The maximum down the 32 codewords of a `[32, 9216]` array, taken from −∞, at pixel `n`. -/
theorem colmax32_apply (v : FVec Ideal S32x9216 .f32) (n : Fin 9216) :
    multiReduction .maximumf [0] S9216 v 0xFF800000#32 reduces_S32x9216_S9216 (.inl rfl) rfl (ix1 n)
      = (Finset.univ : Finset (Fin 32)).fold max (Ideal.ofBits .f32 0xFF800000#32) (fun k => v (ix2 k n)) := by
  refine (Ideal.multiReduction_maximumf_single v _ _ _ _ (ix1 n)).trans ?_
  exact Cert.LibMaxFold.fold_congr _ _ fun k _ => congrArg v (funext fun a => Fin.ext (by
    match a with
    | ⟨0, _⟩ => rfl
    | ⟨1, _⟩ => rfl))

/-! ## The two matrix products of the body, each read at an index as a sum over the contracted coordinate -/

/-- In the first product the left operand's row is the output's row … -/
theorem kn_lhs_row (i : S32x9216.Idx) (q : dot_S32x128_S128x9216_S32x9216_1_0_0_1_n_n.contr.Idx) :
    (dot_S32x128_S128x9216_S32x9216_1_0_0_1_n_n.lhsIdx i q 0).val = (i 0).val := by
  unfold DotDims.lhsIdx
  rw [dif_neg (show ¬(0 : Fin S32x128.rank) ∈ dot_S32x128_S128x9216_S32x9216_1_0_0_1_n_n.lhsBatch by decide),
    dif_pos (show (0 : Fin S32x128.rank) ∈ dot_S32x128_S128x9216_S32x9216_1_0_0_1_n_n.lhsNonContracting by decide)]
  rfl

/-- … and the right operand's column is the output's column. -/
theorem kn_rhs_col (i : S32x9216.Idx) (q : dot_S32x128_S128x9216_S32x9216_1_0_0_1_n_n.contr.Idx) :
    (dot_S32x128_S128x9216_S32x9216_1_0_0_1_n_n.rhsIdx i q 1).val = (i 1).val := by
  unfold DotDims.rhsIdx
  rw [dif_neg (show ¬(1 : Fin S128x9216.rank) ∈ dot_S32x128_S128x9216_S32x9216_1_0_0_1_n_n.rhsBatch by decide),
    dif_pos (show (1 : Fin S128x9216.rank) ∈ dot_S32x128_S128x9216_S32x9216_1_0_0_1_n_n.rhsNonContracting by decide)]
  rfl

/-- Codewords `[32, 128]` times the slab `[128, 9216]` into the zero splat: at `(k, n)` the sum over the channels. -/
theorem matmul_kn_apply (l : FVec Ideal S32x128 .bf16) (r : FVec Ideal S128x9216 .bf16) (k : Fin 32) (n : Fin 9216) :
    matmul dot_S32x128_S128x9216_S32x9216_1_0_0_1_n_n none l r (constant (F := Ideal) S32x9216 .f32 0x00000000#32) (ix2 k n)
      = ∑ d : Fin 128, l (ix2 k d) * r (ix2 d n) := by
  simp only [matmul]
  rw [Ideal.matmul_constant_zero_apply,
    ← Equiv.sum_comp (contrEquiv1 dot_S32x128_S128x9216_S32x9216_1_0_0_1_n_n 128 rfl rfl).symm]
  refine Finset.sum_congr rfl fun d _ => ?_
  have hd := contrEquiv1_symm_val dot_S32x128_S128x9216_S32x9216_1_0_0_1_n_n 128 rfl rfl d
  have el : dot_S32x128_S128x9216_S32x9216_1_0_0_1_n_n.lhsIdx (ix2 k n)
      ((contrEquiv1 dot_S32x128_S128x9216_S32x9216_1_0_0_1_n_n 128 rfl rfl).symm d) = ix2 k d :=
    funext fun a => Fin.ext (by
      match a with
      | ⟨0, _⟩ => exact kn_lhs_row _ _
      | ⟨1, _⟩ => exact (dot_S32x128_S128x9216_S32x9216_1_0_0_1_n_n.lhsIdx_val_of_single rfl _ _).trans hd)
  have er : dot_S32x128_S128x9216_S32x9216_1_0_0_1_n_n.rhsIdx (ix2 k n)
      ((contrEquiv1 dot_S32x128_S128x9216_S32x9216_1_0_0_1_n_n 128 rfl rfl).symm d) = ix2 d n :=
    funext fun a => Fin.ext (by
      match a with
      | ⟨0, _⟩ => exact (dot_S32x128_S128x9216_S32x9216_1_0_0_1_n_n.rhsIdx_val_of_single rfl _ _).trans hd
      | ⟨1, _⟩ => exact kn_rhs_col _ _)
  rw [el, er]

/-- In the second product the left operand's row is the output's row … -/
theorem kd_lhs_row (i : S32x128.Idx) (q : dot_S32x9216_S128x9216_S32x128_1_1_0_0_n_n.contr.Idx) :
    (dot_S32x9216_S128x9216_S32x128_1_1_0_0_n_n.lhsIdx i q 0).val = (i 0).val := by
  unfold DotDims.lhsIdx
  rw [dif_neg (show ¬(0 : Fin S32x9216.rank) ∈ dot_S32x9216_S128x9216_S32x128_1_1_0_0_n_n.lhsBatch by decide),
    dif_pos (show (0 : Fin S32x9216.rank) ∈ dot_S32x9216_S128x9216_S32x128_1_1_0_0_n_n.lhsNonContracting by decide)]
  rfl

/-- … and the right operand's row is the output's column. -/
theorem kd_rhs_row (i : S32x128.Idx) (q : dot_S32x9216_S128x9216_S32x128_1_1_0_0_n_n.contr.Idx) :
    (dot_S32x9216_S128x9216_S32x128_1_1_0_0_n_n.rhsIdx i q 0).val = (i 1).val := by
  unfold DotDims.rhsIdx
  rw [dif_neg (show ¬(0 : Fin S128x9216.rank) ∈ dot_S32x9216_S128x9216_S32x128_1_1_0_0_n_n.rhsBatch by decide),
    dif_pos (show (0 : Fin S128x9216.rank) ∈ dot_S32x9216_S128x9216_S32x128_1_1_0_0_n_n.rhsNonContracting by decide)]
  rfl

/-- The assignment `[32, 9216]` times the slab `[128, 9216]`, both contracted along the pixels, into the zero splat:
at `(k, d)` the sum over the pixels. -/
theorem matmul_kd_apply (l : FVec Ideal S32x9216 .bf16) (r : FVec Ideal S128x9216 .bf16) (k : Fin 32) (d : Fin 128) :
    matmul dot_S32x9216_S128x9216_S32x128_1_1_0_0_n_n none l r (constant (F := Ideal) S32x128 .f32 0x00000000#32) (ix2 k d)
      = ∑ n : Fin 9216, l (ix2 k n) * r (ix2 d n) := by
  simp only [matmul]
  rw [Ideal.matmul_constant_zero_apply,
    ← Equiv.sum_comp (contrEquiv1 dot_S32x9216_S128x9216_S32x128_1_1_0_0_n_n 9216 rfl rfl).symm]
  refine Finset.sum_congr rfl fun n _ => ?_
  have hn := contrEquiv1_symm_val dot_S32x9216_S128x9216_S32x128_1_1_0_0_n_n 9216 rfl rfl n
  have el : dot_S32x9216_S128x9216_S32x128_1_1_0_0_n_n.lhsIdx (ix2 k d)
      ((contrEquiv1 dot_S32x9216_S128x9216_S32x128_1_1_0_0_n_n 9216 rfl rfl).symm n) = ix2 k n :=
    funext fun a => Fin.ext (by
      match a with
      | ⟨0, _⟩ => exact kd_lhs_row _ _
      | ⟨1, _⟩ => exact (dot_S32x9216_S128x9216_S32x128_1_1_0_0_n_n.lhsIdx_val_of_single rfl _ _).trans hn)
  have er : dot_S32x9216_S128x9216_S32x128_1_1_0_0_n_n.rhsIdx (ix2 k d)
      ((contrEquiv1 dot_S32x9216_S128x9216_S32x128_1_1_0_0_n_n 9216 rfl rfl).symm n) = ix2 d n :=
    funext fun a => Fin.ext (by
      match a with
      | ⟨0, _⟩ => exact kd_rhs_row _ _
      | ⟨1, _⟩ => exact (dot_S32x9216_S128x9216_S32x128_1_1_0_0_n_n.rhsIdx_val_of_single rfl _ _).trans hn)
  rw [el, er]

/-! ## The body's intermediate arrays

Each is the payload's own term for one of its values, over the three loaded blocks: the payload is then their
composition, by unfolding (`pay_eq`). -/

section Stages

variable (v0 : FVec Ideal S32x128 .f32) (v1 : FVec Ideal S32x1 .f32) (v10 : FVec Ideal S1x128x9216 .f32)

/-- The image slab as a `[128, 9216]` matrix. -/
def slabMat : FVec Ideal S128x9216 .f32 := shapeCast S128x9216 v10 shapeCasts_S1x128x9216_S128x9216

/-- The squared norms of the codewords, as a column. -/
def cnormCol : FVec Ideal S32x1 .f32 :=
  shapeCast S32x1 (multiReduction (F := Ideal) .add [1] S32 (mulf v0 v0) 0x00000000#32 reduces_S32x128_S32 (.inl rfl) rfl)
    shapeCasts_S32_S32x1

/-- The squared scales, as a column. -/
def scaleSqCol : FVec Ideal S32x1 .f32 :=
  mulf (shapeCast S32x1 v1 shapeCasts_S32x1_S32x1) (shapeCast S32x1 v1 shapeCasts_S32x1_S32x1)

/-- The squared norms of the pixels, as a row. -/
def xnormRow : FVec Ideal S1x9216 .f32 :=
  shapeCast S1x9216
    (multiReduction (F := Ideal) .add [0] S9216 (mulf (slabMat v10) (slabMat v10)) 0x00000000#32 reduces_S128x9216_S9216
      (.inl rfl) rfl)
    shapeCasts_S9216_S1x9216

/-- The inner products of the codewords with the pixels. -/
def innerMat : FVec Ideal S32x9216 .f32 :=
  matmul dot_S32x128_S128x9216_S32x9216_1_0_0_1_n_n none (truncf .bf16 v0 bitsLt_bf16_f32)
    (truncf .bf16 (slabMat v10) bitsLt_bf16_f32) (constant (F := Ideal) S32x9216 .f32 0x00000000#32)

/-- The scaled squared distances. -/
def logitMat : FVec Ideal S32x9216 .f32 :=
  mulf (broadcastTo S32x9216 (scaleSqCol v1) broadcasts_S32x1_S32x9216)
    (addf
      (subf (broadcastTo S32x9216 (xnormRow v10) broadcasts_S1x9216_S32x9216)
        (mulf (broadcast S32x9216 (Scalar.ofBits (F := Ideal) .f32 0x40000000#32)) (innerMat v0 v10)))
      (broadcastTo S32x9216 (cnormCol v0) broadcasts_S32x1_S32x9216))

/-- Each pixel's largest logit, repeated down the codewords. -/
def topMat : FVec Ideal S32x9216 .f32 :=
  broadcastTo S32x9216
    (shapeCast S1x9216
      (multiReduction (F := Ideal) .maximumf [0] S9216 (logitMat v0 v1 v10) 0xFF800000#32 reduces_S32x9216_S9216 (.inl rfl) rfl)
      shapeCasts_S9216_S1x9216)
    broadcasts_S1x9216_S32x9216

/-- The softmax numerators. -/
def weightMat : FVec Ideal S32x9216 .f32 := Idealize.ShloMosaic.exp (subf (logitMat v0 v1 v10) (topMat v0 v1 v10))

/-- Each pixel's softmax denominator, repeated down the codewords. -/
def massMat : FVec Ideal S32x9216 .f32 :=
  broadcastTo S32x9216
    (shapeCast S1x9216
      (multiReduction (F := Ideal) .add [0] S9216 (weightMat v0 v1 v10) 0x00000000#32 reduces_S32x9216_S9216 (.inl rfl) rfl)
      shapeCasts_S9216_S1x9216)
    broadcasts_S1x9216_S32x9216

/-- The soft assignments. -/
def assignMat : FVec Ideal S32x9216 .f32 := divf (weightMat v0 v1 v10) (massMat v0 v1 v10)

/-- The stored block: the assignment-weighted sums of the pixels less the total assignments times the codewords. -/
def resultBlk : FVec Ideal S1x32x128 .f32 :=
  shapeCast S1x32x128
    (subf
      (matmul dot_S32x9216_S128x9216_S32x128_1_1_0_0_n_n none (truncf .bf16 (assignMat v0 v1 v10) bitsLt_bf16_f32)
        (truncf .bf16 (slabMat v10) bitsLt_bf16_f32) (constant (F := Ideal) S32x128 .f32 0x00000000#32))
      (mulf
        (broadcastTo S32x128
          (shapeCast S32x1
            (multiReduction (F := Ideal) .add [1] S32 (assignMat v0 v1 v10) 0x00000000#32 reduces_S32x9216_S32 (.inl rfl) rfl)
            shapeCasts_S32_S32x1)
          broadcasts_S32x1_S32x128)
        v0))
    shapeCasts_S32x128_S1x32x128

/-- The payload is the composition of these arrays: its lines substitute to exactly this term. -/
theorem pay_eq : k0_pay1 (F := Ideal) v0 v1 v10 = resultBlk v0 v1 v10 := rfl

end Stages

/-! ## The intermediate arrays at an index: the specification's functions

`v0`, `v1`, `v10` are the loaded codeword block, scale block and slab of image `b`; the hypotheses say what each
holds at literal coordinates. -/

section Read

variable (X : Cert.Spec.SX.Idx → EReal) (C : Cert.Spec.SC.Idx → EReal) (s : Cert.Spec.SS.Idx → EReal) (b : Fin 32)
  (v0 : FVec Ideal S32x128 .f32) (v1 : FVec Ideal S32x1 .f32) (v10 : FVec Ideal S1x128x9216 .f32)
  (h0 : ∀ (k : Fin 32) (d : Fin 128), v0 (ix2 k d) = C (ix2 k d))
  (h1 : ∀ k : Fin 32, v1 (ix2 k (0 : Fin 1)) = s (ix1 k))
  (h10 : ∀ (d : Fin 128) (n : Fin 9216), v10 (ix3 (0 : Fin 1) d n) = X (ix3 b d n))

include h10 in
/-- The slab at `(d, n)` is image `b` at channel `d`, pixel `n`. -/
theorem slabMat_apply (d : Fin 128) (n : Fin 9216) : slabMat v10 (ix2 d n) = X (ix3 b d n) := by
  unfold slabMat
  rw [shapeCast_1ab_ab_apply, h10]

include h0 in
/-- The column of squared codeword norms at row `k`. -/
theorem cnormCol_apply (k : Fin 32) : cnormCol v0 (ix2 k (0 : Fin 1)) = Cert.Spec.cnorm C k := by
  unfold cnormCol Cert.Spec.cnorm
  rw [shapeCast_a_a1_apply, rowsum128_apply]
  simp only [mulf_apply, h0]

include h1 in
/-- The column of squared scales at row `k`. -/
theorem scaleSqCol_apply (k : Fin 32) : scaleSqCol v1 (ix2 k (0 : Fin 1)) = s (ix1 k) * s (ix1 k) := by
  unfold scaleSqCol
  rw [shapeCast_self, mulf_apply, h1]

include h10 in
/-- The row of squared pixel norms at pixel `n`. -/
theorem xnormRow_apply (n : Fin 9216) : xnormRow v10 (ix2 (0 : Fin 1) n) = Cert.Spec.xnorm X b n := by
  unfold xnormRow Cert.Spec.xnorm
  rw [shapeCast_a_1a_apply, colsum128_apply]
  simp only [mulf_apply, slabMat_apply X b v10 h10]

include h0 h10 in
/-- The inner products at `(k, n)`. -/
theorem innerMat_apply (k : Fin 32) (n : Fin 9216) : innerMat v0 v10 (ix2 k n) = Cert.Spec.inner X C b k n := by
  unfold innerMat Cert.Spec.inner
  rw [matmul_kn_apply]
  simp only [truncf_apply, slabMat_apply X b v10 h10, h0]

include h0 h1 h10 in
/-- The logits at `(k, n)`. -/
theorem logitMat_apply (k : Fin 32) (n : Fin 9216) : logitMat v0 v1 v10 (ix2 k n) = Cert.Spec.logit X C s b k n := by
  unfold logitMat Cert.Spec.logit Cert.Spec.two
  rw [mulf_apply, addf_apply, subf_apply, mulf_apply, broadcast_apply, broadcastTo_a1_ab_apply, broadcastTo_1b_ab_apply,
    broadcastTo_a1_ab_apply, scaleSqCol_apply s v1 h1, xnormRow_apply X b v10 h10, innerMat_apply X C b v0 v10 h0 h10,
    cnormCol_apply C v0 h0]
  rfl

include h0 h1 h10 in
/-- The largest logit of pixel `n`, at any row. -/
theorem topMat_apply (k : Fin 32) (n : Fin 9216) : topMat v0 v1 v10 (ix2 k n) = Cert.Spec.top X C s b n := by
  unfold topMat Cert.Spec.top Cert.Spec.negInf
  rw [broadcastTo_1b_ab_apply, shapeCast_a_1a_apply, colmax32_apply]
  exact Cert.LibMaxFold.fold_congr _ _ fun k' _ => logitMat_apply X C s b v0 v1 v10 h0 h1 h10 k' n

include h0 h1 h10 in
/-- The softmax numerators at `(k, n)`. -/
theorem weightMat_apply (k : Fin 32) (n : Fin 9216) : weightMat v0 v1 v10 (ix2 k n) = Cert.Spec.weight X C s b k n := by
  unfold weightMat Cert.Spec.weight
  show Ideal.exp (subf (logitMat v0 v1 v10) (topMat v0 v1 v10) (ix2 k n)) = _
  rw [subf_apply, logitMat_apply X C s b v0 v1 v10 h0 h1 h10, topMat_apply X C s b v0 v1 v10 h0 h1 h10]

include h0 h1 h10 in
/-- The softmax denominator of pixel `n`, at any row. -/
theorem massMat_apply (k : Fin 32) (n : Fin 9216) : massMat v0 v1 v10 (ix2 k n) = Cert.Spec.mass X C s b n := by
  unfold massMat Cert.Spec.mass
  rw [broadcastTo_1b_ab_apply, shapeCast_a_1a_apply, colsum32_apply]
  exact Finset.sum_congr rfl fun k' _ => weightMat_apply X C s b v0 v1 v10 h0 h1 h10 k' n

include h0 h1 h10 in
/-- The soft assignments at `(k, n)`. -/
theorem assignMat_apply (k : Fin 32) (n : Fin 9216) : assignMat v0 v1 v10 (ix2 k n) = Cert.Spec.assign X C s b k n := by
  unfold assignMat Cert.Spec.assign
  rw [divf_apply, weightMat_apply X C s b v0 v1 v10 h0 h1 h10, massMat_apply X C s b v0 v1 v10 h0 h1 h10]

include h0 h1 h10 in
/-- The stored block at `(0, k, d)`. -/
theorem resultBlk_apply (k : Fin 32) (d : Fin 128) :
    resultBlk v0 v1 v10 (ix3 (0 : Fin 1) k d) = Cert.Spec.residual X C s b k d := by
  unfold resultBlk Cert.Spec.residual
  rw [shapeCast_ab_1ab_apply, subf_apply, mulf_apply, matmul_kd_apply, broadcastTo_a1_ab_apply, shapeCast_a_a1_apply,
    rowsum9216_apply, h0]
  simp only [truncf_apply, slabMat_apply X b v10 h10, assignMat_apply X C s b v0 v1 v10 h0 h1 h10]

end Read

/-- THE PAYLOAD AT AN INDEX: the block the body stores for image `b`, read at codeword `k` and channel `d`, is the
specification's residual there. -/
theorem pay_apply (X : Cert.Spec.SX.Idx → EReal) (C : Cert.Spec.SC.Idx → EReal) (s : Cert.Spec.SS.Idx → EReal) (b : Fin 32)
    (v0 : Vec Ideal Cert.KernelIdeal.S32x128 .f32) (v1 : Vec Ideal Cert.KernelIdeal.S32x1 .f32)
    (v10 : Vec Ideal Cert.KernelIdeal.S1x128x9216 .f32)
    (h0 : ∀ (k : Fin 32) (d : Fin 128), v0 (ix2 k d) = C (ix2 k d))
    (h1 : ∀ k : Fin 32, v1 (ix2 k (0 : Fin 1)) = s (ix1 k))
    (h10 : ∀ (d : Fin 128) (n : Fin 9216), v10 (ix3 (0 : Fin 1) d n) = X (ix3 b d n))
    (k : Fin 32) (d : Fin 128) :
    Cert.KernelIdeal.Gen.k0_pay1 (F := Ideal) v0 v1 v10 (ix3 (0 : Fin 1) k d) = Cert.Spec.residual X C s b k d :=
  (congrFun (pay_eq v0 v1 v10) (ix3 (0 : Fin 1) k d)).trans (resultBlk_apply X C s b v0 v1 v10 h0 h1 h10 k d)

end Cert.KernelPay

end
-- ==== Proof.KernelArray.lean ====
/-
  The kernel's output array after the run.

  The grid has 16 points; point `t` stages images `2t` and `2t + 1`, all the codewords and all the scales, and
  writes back rows `2t` and `2t + 1` of the 32 × 32 × 128 result.  What the body leaves in its staging block is
  one function of the block's index (row `q` is the tile computed from slab `q`), the tile computed from an image
  is the specification's residual of that image, and the 16 blocks of two rows tile the array: so the array ends
  holding the specification of the arrays the region finds — the merged images, the codewords, the scales.
-/
import proofs.«146674_j15290083573959_2_alg».proof.Proof.Gen.KernelIdeal.Value
import proofs.«146674_j15290083573959_2_alg».proof.Proof.Spec
import proofs.«146674_j15290083573959_2_alg».proof.Proof.KernelPieces
import proofs.«146674_j15290083573959_2_alg».proof.Proof.KernelPay
import proofs.«146674_j15290083573959_2_alg».proof.Proof.KernelWindows

noncomputable section

namespace Cert.KernelArray

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification of the arrays the region finds on core `c`: the merged images (written by the host before
    the region), the codewords and the scales (arguments). -/
def result (c : Dev nD) : S32x32x128.Idx → EReal :=
  Cert.Spec.G (V m c main_v0) (m ((c : Thread nD τ).loc main_arg1)) (m ((c : Thread nD τ).loc main_arg2))

/-- What point `t` writes back is block `t` of the specification: at `(q, k, d)` of the block the body left the
    tile of slab `q` at `(k, d)`, slab `q` of the staged pair is image `2t + q`, and the block's index `(q, k, d)`
    sits at `(2t + q, k, d)` of the array. -/
theorem flushed_eq (c : Dev nD) (t : Fin cfg0.N) :
    (dats m 0 c).flushed 3 t = ((cfg0.win 3).blk t).view.read (Elt Ideal) (result m c) := by
  rw [flushed3_A]
  funext j
  obtain ⟨q, k, d, rfl⟩ : ∃ (q : Fin 2) (k : Fin 32) (d : Fin 128), j = ix3 q k d := ⟨j 0, j 1, j 2, eq_ix3 j⟩
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) (ix3 q k d)
    = result m c (((cfg0.win 3).blk t).view.emb (ix3 q k d))
  rw [Cert.KernelValue.out_apply, Cert.KernelWindows.blk3_emb]
  unfold result
  rw [Cert.Spec.G_ix3]
  exact Cert.KernelPay.pay_apply (V m c main_v0) (m ((c : Thread nD τ).loc main_arg1)) (m ((c : Thread nD τ).loc main_arg2)) _
    (iblk m c 1 t) (iblk m c 2 t) (Cert.KernelValue.slab (iblk m c 0 t) q)
    (fun k' d' => Cert.KernelWindows.iblk1_apply m c t k' d')
    (fun k' => Cert.KernelWindows.iblk2_apply m c t k')
    (fun d' n' => (Cert.KernelValue.slab_ix3 (iblk m c 0 t) q 0 d' n').trans (Cert.KernelWindows.iblk0_apply m c t q d' n'))
    k d

/-- The array after the run: the blocks written back cover it, each a block of the specification. -/
theorem final (c : Dev nD) : (dats m 0 c).arrAt 3 cfg0.N = result m c :=
  (dats m 0 c).arrAt_eq_of_cover 3 (result m c) (fun t _ => flushed_eq m c t) Cert.KernelWindows.cover3

/-- The kernel's run: every weakly fair execution terminates with the result array at the specification of what the
    region finds, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelArray

end
-- ==== Proof.lean ====
/-
  The certificate of a residual-encoding kernel against its jnp reference, over the extended reals.

  For each of 32 images (128 channels, 96 × 96 pixels) and 32 codewords with scales, both programs compute

    E[b, k, d] = Σ_n A[b, k, n] · X[b, d, n] − (Σ_n A[b, k, n]) · C[k, d],
    A[b, ·, n] = softmax over k of  s_k² · ((‖x_bn‖² − 2 ⟨c_k, x_bn⟩) + ‖c_k‖²),

  the kernel two images per grid point with both products on the matrix unit and a two-trip loop over the pair, the
  reference with two whole `dot_general`s over transposed images.  At the ideal instance a change of float format
  is the identity, a matrix product into a zero accumulator and a host product are the same sum, and a lane
  reduction and a host reduction are the same sum or the same maximum: so both sides are one function of the merged
  images, the codewords and the scales (Proof/Spec.lean), the kernel's side read off its run block by block
  (Proof/KernelPieces.lean, KernelPay.lean, KernelWindows.lean, KernelArray.lean) and the reference's off its run
  stage by stage (Proof/RefSpec.lean).  The only laws between the two sides are commutativity of the product
  inside one sum, 0 + x = x, and that a maximum folded from −∞ absorbs one more maximum with −∞; none needs a value
  to be finite, so the precondition is not opened.

  The frames are the generated ones (the reference's is its generated run with the result dropped).  The one
  rewrite of the idealization — a value narrowed to bf16 and widened back, read as the value itself — is its
  rule's statement.
-/
import proofs.«146674_j15290083573959_2_alg».proof.Defs
import proofs.«146674_j15290083573959_2_alg».proof.Proof.Gen.Kernel
import proofs.«146674_j15290083573959_2_alg».proof.Proof.Gen.Kernel.Frame
import proofs.«146674_j15290083573959_2_alg».proof.Proof.Gen.KernelIdeal
import proofs.«146674_j15290083573959_2_alg».proof.Proof.Gen.KernelIdeal.Frame
import proofs.«146674_j15290083573959_2_alg».proof.Proof.Gen.KernelIdeal.Value
import proofs.«146674_j15290083573959_2_alg».proof.Proof.Gen.ReferenceIdeal
import proofs.«146674_j15290083573959_2_alg».proof.Proof.Gen.ReferenceIdeal.Run
import proofs.«146674_j15290083573959_2_alg».proof.Proof.Gen.ReferenceIdeal.Read
import proofs.«146674_j15290083573959_2_alg».proof.Proof.Gen.Pre_finite_inputs
import proofs.«146674_j15290083573959_2_alg».proof.Proof.Spec
import proofs.«146674_j15290083573959_2_alg».proof.Proof.RefSpec
import proofs.«146674_j15290083573959_2_alg».proof.Proof.KernelWindows
import proofs.«146674_j15290083573959_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the soft assignment narrowed to bf16 and widened back is the assignment. -/
theorem preserves : Cert.preserves_Kernel_KernelIdeal :=
  IdealRules.truncf_extf.statement Cert.KernelIdeal.S32x9216 .f32 .bf16

/-- Both runs end with the result at the specification of the merged images, the codewords and the scales: the
    kernel's array block by block, the reference's term stage by stage, from memories that agree on the arguments
    (the merged images are the same reshape of the same argument on both sides). -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefSpec.val_main_v37_eq_G,
    (hagree c).1, (hagree c).2.1, (hagree c).2.2]
  show _ = Cert.KernelArray.result m c
  unfold Cert.KernelArray.result
  rw [Cert.KernelWindows.V_v0]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
